-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : FVec F S128x16 .f32) (main_arg2 : FVec F S16 .f32) (main_arg3 : FVec F S16x40 .f32) (main_arg4 : FVec F S40 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x128 : Shape := ⟨2, ![100000, 128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 40
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x16, .f32⟩
  | .hbm, ⟨24, _⟩ => ⟨S100000x16, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x16, .f32⟩
  | .hbm, ⟨34, _⟩ => ⟨S_, .f32⟩
  | .hbm, ⟨35, _⟩ => ⟨S100000x16, .f32⟩
  | .hbm, ⟨36, _⟩ => ⟨S1600000x1, .i32⟩
  | .hbm, ⟨37, _⟩ => ⟨S100000x16, .f32⟩
  | .hbm, ⟨38, _⟩ => ⟨S1x40, .f32⟩
  | .hbm, ⟨39, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S40_S1x40 : S40.ShapeCasts S1x40
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x40_S5000x40_1_0_0_1_n_n_wf : DotDims.WF S5000x16 S16x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x40 : Shape := ⟨2, ![16, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x16 : Shape := ⟨2, ![100000, 16]⟩
abbrev S1x16 : Shape := ⟨2, ![1, 16]⟩
abbrev S1600000x16 : Shape := ⟨2, ![1600000, 16]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x16, .f32⟩
  | .hbm, ⟨40, _⟩ => ⟨S_, .f32⟩
  | .hbm, ⟨41, _⟩ => ⟨S100000x16, .f32⟩
  | .hbm, ⟨42, _⟩ => ⟨S1600000x1, .i32⟩
  | .hbm, ⟨43, _⟩ => ⟨S100000x16, .f32⟩
  | .hbm, ⟨44, _⟩ => ⟨S100000x16, .f32⟩
  | .hbm, ⟨45, _⟩ => ⟨S100000x40, .f32⟩
  | .hbm, ⟨46, _⟩ => ⟨S1x40, .f32⟩
  | .hbm, ⟨47, _⟩ => ⟨S100000x40, .f32⟩
  | .hbm, ⟨48, _⟩ => ⟨S100000x40, .f32⟩
  | .hbm, ⟨49, _⟩ => ⟨S_, .f32⟩
  | .hbm, ⟨50, _⟩ => ⟨S100000x40, .f32⟩
  | .hbm, ⟨51, _⟩ => ⟨S100000x40, .f32⟩
  | .hbm, ⟨52, _⟩ => ⟨S_, .f32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x40, .f32⟩
  | .hbm, ⟨59, _⟩ => ⟨S100000x40, .f32⟩
  | .hbm, ⟨60, _⟩ => ⟨S100000x40, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S100000x1, .f32⟩
  | .hbm, ⟨65, _⟩ => ⟨S100000x40, .f32⟩
  | .hbm, ⟨66, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v36 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.KernelRun.lean ====
/-
  The idealized kernel program's run with its result named.  @main is four stretches — host operations, the first
  layer's kernel over twenty node blocks, host operations, the second layer's kernel over twenty node blocks — and the
  buffer contents at each boundary are a fold from the launch memory: a host stretch leaves what its operations compute,
  a kernel region leaves its arrays at what its write-backs fold to and every other buffer as it found it.  Every weakly
  fair execution terminates with the result array at the last boundary's contents and the six arguments as launched.
-/
import proofs.«113901_j36335423324412_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the contents of the last boundary, the arguments end as launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.Spec.lean ====
/-
  The two GIN layers as functions of rows, over the extended reals.

  A layer takes, at each node, the node's feature row `h` plus the aggregated row `a` of its in-neighbours, maps the
  sum through a dense matrix `w`, adds a bias `b` and clamps at zero:
      dense h a w b j = max (∑ k, (h k + a k) · w k j + b j) 0.
  The last layer ends in a log-softmax over the row: with `mx` the row's maximum (taken from −∞),
      logSoftmax r j = (r j − mx) − log (∑ c, exp (r c − mx)).
  Both are functions of ONE node's rows only, so a program that computes them node block by node block and one that
  computes them on the whole node array agree entry by entry; no law of the extended reals beyond reading the two
  programs' sums and folds over the same index sets is used.
-/
import Idealize.ShloMosaic.PureOps.Ideal
import Mathlib.Algebra.BigOperators.Fin

noncomputable section

namespace Cert.Spec

open Idealize.ShloMosaic

/-- One dense layer on a node's row: the row plus the aggregated row through the matrix, plus the bias, clamped at zero. -/
def dense {K J : ℕ} (h a : Fin K → EReal) (w : Fin K → Fin J → EReal) (b : Fin J → EReal) (j : Fin J) : EReal :=
  max ((∑ k : Fin K, (h k + a k) * w k j) + b j) 0

/-- A row's maximum, from −∞. -/
def rowMax {J : ℕ} (r : Fin J → EReal) : EReal := (Finset.univ : Finset (Fin J)).fold max ⊥ r

/-- The log-softmax of a row: each entry less the row's maximum, less the logarithm of the sum of the exponentials of
    the entries so shifted. -/
def logSoftmax {J : ℕ} (r : Fin J → EReal) (j : Fin J) : EReal :=
  (r j - rowMax r) - Ideal.log (∑ c : Fin J, Ideal.exp (r c - rowMax r))

end Cert.Spec

end
-- ==== Proof.Layer1.lean ====
/-
  The first layer's kernel region, read as one whole-array function.

  The region runs the layer's body at twenty grid points; point `t` loads rows `5000 t … 5000 t + 4999` of the node
  features and of the aggregated features, the whole weight matrix and the bias row, and writes back rows
  `5000 t … 5000 t + 4999` of the output.  An entry `(p, q)` of the block a point writes is the dense layer of row `p` of its two
  loaded blocks (the matrix product into a zero accumulator is the sum over the contracted coordinate; the bias row is
  broadcast down the rows; the rounding to the matrix unit's format is the identity on extended reals), so it is the
  dense layer of row `5000 t + p` of the two arrays: every block is the restriction of ONE function `G1` of the region's
  four arrays, the twenty blocks cover the output, and the output array ends holding `G1`.
-/
import proofs.«113901_j36335423324412_1_alg».proof.Proof.Gen.KernelIdeal.Frame
import proofs.«113901_j36335423324412_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.L1

open Cert.KernelIdeal Cert.KernelIdeal.Gen

theorem hz : (![0, 0] : Fin 2 → Nat) = fun _ => 0 := funext fun a => by fin_cases a <;> rfl

/-- The coordinates of the two operand indices of the product at an output index and a contraction index that do not come
    from the contraction: the row of the left operand is the output's row, the column of the right operand the output's column. -/
theorem mm_apply_lhs0 (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem mm_apply_rhs1 (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The matrix product of an `5000 × 128` block and a `128 × 16` matrix into a zero accumulator, read at `(p, q)`: the sum over the
    contracted coordinate `k` of the block at `(p, k)` times the matrix at `(k, q)`. -/
theorem mm_apply {φ₁ φ₂ : FTy} (l : FVec Ideal S5000x128 φ₁) (r : FVec Ideal S128x16 φ₂) (p : Fin 5000) (q : Fin 16) :
    matmul dot_S5000x128_S128x16_S5000x16_1_0_0_1_n_n none l r (constant S5000x16 .f32 0x00000000#32) (ix2 p q)
      = ∑ k : Fin 128, l (ix2 p k) * r (ix2 k q) := by
  refine (Ideal.matmul_constant_zero_apply dot_S5000x128_S128x16_S5000x16_1_0_0_1_n_n none l r (ix2 p q)).trans ?_
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact mm_apply_lhs0 _ _
    | ⟨1, _⟩ => exact (dot_S5000x128_S128x16_S5000x16_1_0_0_1_n_n.lhsIdx_val_of_single rfl _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (dot_S5000x128_S128x16_S5000x16_1_0_0_1_n_n.rhsIdx_val_of_single rfl _ _).trans hk
    | ⟨1, _⟩ => exact mm_apply_rhs1 _ _)
  rw [el, er]

/-- The body's stored value at `(p, q)`: the dense layer of row `p` of the two loaded blocks. -/
theorem pay_apply (x0 x1 : Vec Ideal S5000x128 .f32) (x2 : Vec Ideal S128x16 .f32) (x3 : Vec Ideal S1x16 .f32) (p : Fin 5000) (q : Fin 16) :
    k0_pay1 x0 x1 x2 x3 (ix2 p q)
      = Spec.dense (fun k : Fin 128 => x0 (ix2 p k)) (fun k : Fin 128 => x1 (ix2 p k)) (fun (k : Fin 128) (j : Fin 16) => x2 (ix2 k j))
          (fun j : Fin 16 => x3 (ix2 (0 : Fin 1) j)) q := by
  unfold k0_pay1 Spec.dense
  simp only [shapeCast_self]
  refine congrArg₂ max (congrArg₂ (· + ·) ((mm_apply _ _ p q).trans rfl) (broadcastTo_1b_ab_apply x3 _ p q)) Ideal.ofBits_zero_f32

/-- The region's output as one function of its four arrays: the dense layer of each node's row. -/
def G1 (X A : S100000x128.Idx → Elt Ideal .f32) (Wm : S128x16.Idx → Elt Ideal .f32) (Bs : S1x16.Idx → Elt Ideal .f32) :
    S100000x16.Idx → Elt Ideal .f32 :=
  fun i => Spec.dense (fun k : Fin 128 => X (ix2 (i 0) k)) (fun k : Fin 128 => A (ix2 (i 0) k)) (fun (k : Fin 128) (j : Fin 16) => Wm (ix2 k j))
    (fun j : Fin 16 => Bs (ix2 (0 : Fin 1) j)) (i 1)

/-- A block entry is the whole-array function at the array index it sits at, once the loaded blocks are read as rows of the arrays. -/
theorem block_eq (x0 x1 : Vec Ideal S5000x128 .f32) (x2 : Vec Ideal S128x16 .f32) (x3 : Vec Ideal S1x16 .f32)
    (X A : S100000x128.Idx → Elt Ideal .f32) (Wm : S128x16.Idx → Elt Ideal .f32) (Bs : S1x16.Idx → Elt Ideal .f32)
    (y : S5000x16.Idx) (i : S100000x16.Idx)
    (h0 : ∀ k : Fin 128, x0 (ix2 (y 0) k) = X (ix2 (i 0) k)) (h1 : ∀ k : Fin 128, x1 (ix2 (y 0) k) = A (ix2 (i 0) k))
    (h2 : ∀ (k : Fin 128) (j : Fin 16), x2 (ix2 k j) = Wm (ix2 k j)) (h3 : ∀ j : Fin 16, x3 (ix2 (0 : Fin 1) j) = Bs (ix2 (0 : Fin 1) j))
    (hi : (y 1).val = (i 1).val) :
    k0_pay1 x0 x1 x2 x3 y = G1 X A Wm Bs i :=
  calc k0_pay1 x0 x1 x2 x3 y = k0_pay1 x0 x1 x2 x3 (ix2 (y 0) (y 1)) := congrArg _ (eq_ix2 y)
    _ = Spec.dense (fun k : Fin 128 => x0 (ix2 (y 0) k)) (fun k : Fin 128 => x1 (ix2 (y 0) k)) (fun (k : Fin 128) (j : Fin 16) => x2 (ix2 k j))
          (fun j : Fin 16 => x3 (ix2 (0 : Fin 1) j)) (y 1) := pay_apply x0 x1 x2 x3 (y 0) (y 1)
    _ = Spec.dense (fun k : Fin 128 => X (ix2 (i 0) k)) (fun k : Fin 128 => A (ix2 (i 0) k)) (fun (k : Fin 128) (j : Fin 16) => Wm (ix2 k j))
          (fun j : Fin 16 => Bs (ix2 (0 : Fin 1) j)) (y 1) := by
      rw [show (fun k : Fin 128 => x0 (ix2 (y 0) k)) = fun k : Fin 128 => X (ix2 (i 0) k) from funext h0,
        show (fun k : Fin 128 => x1 (ix2 (y 0) k)) = fun k : Fin 128 => A (ix2 (i 0) k) from funext h1,
        show (fun (k : Fin 128) (j : Fin 16) => x2 (ix2 k j)) = fun (k : Fin 128) (j : Fin 16) => Wm (ix2 k j) from funext fun k => funext (h2 k),
        show (fun j : Fin 16 => x3 (ix2 (0 : Fin 1) j)) = fun j : Fin 16 => Bs (ix2 (0 : Fin 1) j) from funext h3]
    _ = G1 X A Wm Bs i := congrArg (Spec.dense _ _ _ _) (Fin.ext hi : (y 1 : Fin 16) = i 1)

section Region

variable (V : (c : Dev nD) → (b : Ref sig .tc) → Buf (Elt Ideal) ((c : Thread nD τ).loc b))

/-- The printed index maps over the grid: the row-blocked windows sit at block `t`, the weight and bias windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `G1` of the arrays as the region finds them. -/
theorem flushed_eq (c : Dev nD) (t : Fin cfg0.N) :
    (dat0 V c).flushed 4 t = ((cfg0.win 4).blk t).view.read (Elt Ideal)
      (G1 (V c main_arg0) (V c main_v13) (V c main_arg1) (V c main_v14)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x16) hz, View.ld_unit_zero (S := S1x16) hz]
  obtain ⟨e00, e01, e10, e11, e20, e21, e30, e31, e40, e41⟩ := idx_facts t
  funext y
  refine block_eq (iblk0 V c 0 t) (iblk0 V c 1 t) (iblk0 V c 2 t) (iblk0 V c 3 t)
    (V c main_arg0) (V c main_v13) (V c main_arg1) (V c main_v14) y (((cfg0.win 4).blk t).view.emb y) ?_ ?_ ?_ ?_ ?_
  · intro k
    show V c main_arg0 (((cfg0.win 0).blk t).view.emb (ix2 (y 0) k)) = V c main_arg0 (ix2 ((((cfg0.win 4).blk t).view.emb y) 0) k)
    refine congrArg _ (funext fun a => Fin.ext ?_)
    match a with
    | ⟨0, _⟩ => show win0_0.index t (0 : Fin 2) * 5000 + 1 * (y 0).val = win0_4.index t (0 : Fin 2) * 5000 + 1 * (y 0).val; omega
    | ⟨1, _⟩ => show win0_0.index t (1 : Fin 2) * 128 + 1 * k.val = k.val; omega
  · intro k
    show V c main_v13 (((cfg0.win 1).blk t).view.emb (ix2 (y 0) k)) = V c main_v13 (ix2 ((((cfg0.win 4).blk t).view.emb y) 0) k)
    refine congrArg _ (funext fun a => Fin.ext ?_)
    match a with
    | ⟨0, _⟩ => show win0_1.index t (0 : Fin 2) * 5000 + 1 * (y 0).val = win0_4.index t (0 : Fin 2) * 5000 + 1 * (y 0).val; omega
    | ⟨1, _⟩ => show win0_1.index t (1 : Fin 2) * 128 + 1 * k.val = k.val; omega
  · intro k j
    show V c main_arg1 (((cfg0.win 2).blk t).view.emb (ix2 k j)) = V c main_arg1 (ix2 k j)
    refine congrArg _ (funext fun a => Fin.ext ?_)
    match a with
    | ⟨0, _⟩ => show win0_2.index t (0 : Fin 2) * 128 + 1 * k.val = k.val; omega
    | ⟨1, _⟩ => show win0_2.index t (1 : Fin 2) * 16 + 1 * j.val = j.val; omega
  · intro j
    show V c main_v14 (((cfg0.win 3).blk t).view.emb (ix2 (0 : Fin 1) j)) = V c main_v14 (ix2 (0 : Fin 1) j)
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * j.val = j.val; omega
  · show (y 1).val = win0_4.index t (1 : Fin 2) * 16 + 1 * (y 1).val
    omega

/-- An index of the output array is in point `t`'s block iff each coordinate is in the block's range on its axis. -/
theorem mem_blk (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v15).slice (win0_4.rect t)).set ↔ _
  rw [View.set_slice_whole, Rect.mem_set_unit]
  exact Iff.rfl

/-- Every row of the output is in some point's block: row `r` is in block `r / 5000`. -/
theorem cover (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- The output array after the region: `G1` of the arrays as the region finds them. -/
theorem final (c : Dev nD) : (dat0 V c).arrAt 4 cfg0.N = G1 (V c main_arg0) (V c main_v13) (V c main_arg1) (V c main_v14) :=
  (dat0 V c).arrAt_eq_of_cover 4 _ (fun t _ => flushed_eq V c t) cover

end Region

end Cert.KernelIdeal.L1

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.Layer2.lean ====
/-
  The second layer's kernel region, read as one whole-array function.

  Point `t` of the region's twenty loads rows `5000 t … 5000 t + 4999` of the first layer's output and of its aggregate, the
  whole weight matrix and the bias row, and writes back the same rows of the result.  The body computes, row by row, the
  dense layer `r` of the two loaded rows and then the row's log-softmax: the row maximum is a fold of `max` from −∞ over
  the row's forty entries (kept as a one-column array and broadcast back across the row), the normaliser the logarithm of
  the sum over the row of the exponentials of the shifted entries (again through a one-column array).  So an entry
  `(p, q)` of a written block is the log-softmax at `q` of the dense layer of row `p` of the loaded blocks, every block is the
  restriction of ONE function `G2` of the region's four arrays, the twenty blocks cover the result, and the result array
  ends holding `G2`.
-/
import proofs.«113901_j36335423324412_1_alg».proof.Proof.Gen.KernelIdeal.Frame
import proofs.«113901_j36335423324412_1_alg».proof.Proof.Spec
import proofs.«113901_j36335423324412_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.L2

open Cert.KernelIdeal Cert.KernelIdeal.Gen Idealize.ShloMosaic.ColumnLayout

theorem hz : (![0, 0] : Fin 2 → Nat) = fun _ => 0 := funext fun a => by fin_cases a <;> rfl

/-- The coordinates of the two operand indices of the product at an output index and a contraction index that do not come
    from the contraction: the row of the left operand is the output's row, the column of the right operand the output's column. -/
theorem mm_apply_lhs0 (i : S5000x40.Idx) (q : dot_S5000x16_S16x40_S5000x40_1_0_0_1_n_n.contr.Idx) : (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem mm_apply_rhs1 (i : S5000x40.Idx) (q : dot_S5000x16_S16x40_S5000x40_1_0_0_1_n_n.contr.Idx) : (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The matrix product of an `5000 × 16` block and a `16 × 40` matrix into a zero accumulator, read at `(p, q)`: the sum over the
    contracted coordinate `k` of the block at `(p, k)` times the matrix at `(k, q)`. -/
theorem mm_apply {φ₁ φ₂ : FTy} (l : FVec Ideal S5000x16 φ₁) (r : FVec Ideal S16x40 φ₂) (p : Fin 5000) (q : Fin 40) :
    matmul dot_S5000x16_S16x40_S5000x40_1_0_0_1_n_n none l r (constant S5000x40 .f32 0x00000000#32) (ix2 p q)
      = ∑ k : Fin 16, l (ix2 p k) * r (ix2 k q) := by
  refine (Ideal.matmul_constant_zero_apply dot_S5000x16_S16x40_S5000x40_1_0_0_1_n_n none l r (ix2 p q)).trans ?_
  rw [← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx (ix2 p q) ((ValueIdx.contrEquiv1 dot_S5000x16_S16x40_S5000x40_1_0_0_1_n_n 16 rfl rfl).symm k) = ix2 p k := funext fun a => Fin.ext (by
    match a with
    | ⟨0, _⟩ => exact mm_apply_lhs0 _ _
    | ⟨1, _⟩ => exact (dot_S5000x16_S16x40_S5000x40_1_0_0_1_n_n.lhsIdx_val_of_single rfl _ _).trans hk)
  have er : dot_S5000x16_S16x40_S5000x40_1_0_0_1_n_n.rhsIdx (ix2 p q) ((ValueIdx.contrEquiv1 dot_S5000x16_S16x40_S5000x40_1_0_0_1_n_n 16 rfl rfl).symm k) = ix2 k q := funext fun a => Fin.ext (by
    match a with
    | ⟨0, _⟩ => exact (dot_S5000x16_S16x40_S5000x40_1_0_0_1_n_n.rhsIdx_val_of_single rfl _ _).trans hk
    | ⟨1, _⟩ => exact mm_apply_rhs1 _ _)
  rw [el, er]

/-! ## The body's value in two steps: the dense layer of the block, then the row-wise log-softmax -/

/-- The dense layer (with its clamp at zero) of the two loaded blocks. -/
def reluBlock (v0 v2 : Vec Ideal S5000x16 .f32) (v6 : Vec Ideal S16x40 .f32) (v9 : Vec Ideal S1x40 .f32) : FVec Ideal S5000x40 .f32 :=
  maximumf (addf (matmul dot_S5000x16_S16x40_S5000x40_1_0_0_1_n_n none (truncf .bf16 (addf v0 v2) bitsLt_bf16_f32) (truncf .bf16 v6 bitsLt_bf16_f32) (constant S5000x40 .f32 0x00000000#32))
    (broadcastTo S5000x40 v9 broadcasts_S1x40_S5000x40)) (broadcast S5000x40 (Scalar.ofBits .f32 0x00000000#32))

/-- Each row's maximum, broadcast back across the row. -/
def maxBlock (R : FVec Ideal S5000x40 .f32) : FVec Ideal S5000x40 .f32 :=
  broadcastTo S5000x40 (shapeCast S5000x1 (multiReduction .maximumf [1] S5000 R 0xFF800000#32 reduces_S5000x40_S5000 (.inl rfl) rfl) shapeCasts_S5000_S5000x1) broadcasts_S5000x1_S5000x40

/-- The logarithm of each row's sum of exponentials, broadcast back across the row. -/
def logSumBlock (S : FVec Ideal S5000x40 .f32) : FVec Ideal S5000x40 .f32 :=
  broadcastTo S5000x40 (log (shapeCast S5000x1 (multiReduction .add [1] S5000 (exp S) 0x00000000#32 reduces_S5000x40_S5000 (.inl rfl) rfl) shapeCasts_S5000_S5000x1)) broadcasts_S5000x1_S5000x40

/-- The row-wise log-softmax of a block. -/
def lsmBlock (R : FVec Ideal S5000x40 .f32) : FVec Ideal S5000x40 .f32 :=
  subf (subf R (maxBlock R)) (logSumBlock (subf R (maxBlock R)))

/-- The body's stored value is the log-softmax of the dense layer of its loads. -/
theorem pay_eq (v0 v2 : Vec Ideal S5000x16 .f32) (v6 : Vec Ideal S16x40 .f32) (v9 : Vec Ideal S1x40 .f32) :
    k1_pay1 v0 v2 v6 v9 = lsmBlock (reluBlock v0 v2 v6 v9) := by
  unfold k1_pay1
  simp only [shapeCast_self]
  rfl

/-- The dense layer of the loaded blocks at `(p, j)`. -/
theorem reluBlock_apply (x0 x1 : Vec Ideal S5000x16 .f32) (x2 : Vec Ideal S16x40 .f32) (x3 : Vec Ideal S1x40 .f32) (p : Fin 5000) (j : Fin 40) :
    reluBlock x0 x1 x2 x3 (ix2 p j)
      = Spec.dense (fun k : Fin 16 => x0 (ix2 p k)) (fun k : Fin 16 => x1 (ix2 p k)) (fun (k : Fin 16) (j : Fin 40) => x2 (ix2 k j))
          (fun j : Fin 40 => x3 (ix2 (0 : Fin 1) j)) j := by
  unfold reluBlock Spec.dense
  refine congrArg₂ max (congrArg₂ (· + ·) ((mm_apply _ _ p j).trans rfl) (broadcastTo_1b_ab_apply x3 _ p j)) Ideal.ofBits_zero_f32

/-- A lane maximum from −∞ over the last axis of a block, at row `p`: the fold of `max` from −∞ over the row. -/
theorem rowMax_apply (R : FVec Ideal S5000x40 .f32) (hφ : FKind.Formats .f32)
    (hacc : (0xFF800000#32 : BitVec 32) = FKind.maximumf.neutral .f32 hφ) (p : Fin 5000) :
    multiReduction .maximumf [1] S5000 R 0xFF800000#32 reduces_S5000x40_S5000 hφ hacc (ix1 p) = Spec.rowMax (fun j : Fin 40 => R (ix2 p j)) := by
  refine (Ideal.multiReduction_maximumf_single R 0xFF800000#32 reduces_S5000x40_S5000 hφ hacc (ix1 p)).trans ?_
  unfold Spec.rowMax
  have hb : (FloatOps.ofBits (F := Ideal) .f32 0xFF800000#32 : EReal) = ⊥ := by
    show Ideal.ofBits .f32 0xFF800000#32 = ⊥
    simp [Ideal.ofBits, Ideal.ieee]
  rw [hb]
  refine congrArg (Finset.fold max ⊥ · Finset.univ) (funext fun k => congrArg R (funext fun a => Fin.ext ?_))
  match a with
  | ⟨0, _⟩ => rfl
  | ⟨1, _⟩ => rfl

/-- A lane sum over the last axis of a block, at row `p`: the sum over the row. -/
theorem rowSum_apply (E : FVec Ideal S5000x40 .f32) (hφ : FKind.Formats .f32)
    (hacc : (0x00000000#32 : BitVec 32) = FKind.add.neutral .f32 hφ) (p : Fin 5000) :
    multiReduction .add [1] S5000 E 0x00000000#32 reduces_S5000x40_S5000 hφ hacc (ix1 p) = ∑ c : Fin 40, E (ix2 p c) := by
  refine (Ideal.multiReduction_add_single E 0x00000000#32 reduces_S5000x40_S5000 hφ hacc (ix1 p)).trans ?_
  refine Finset.sum_congr rfl fun k _ => congrArg E (funext fun a => Fin.ext ?_)
  match a with
  | ⟨0, _⟩ => rfl
  | ⟨1, _⟩ => rfl

theorem maxBlock_apply (R : FVec Ideal S5000x40 .f32) (p : Fin 5000) (c : Fin 40) :
    maxBlock R (ix2 p c) = Spec.rowMax (fun j : Fin 40 => R (ix2 p j)) := by
  unfold maxBlock
  exact (broadcastTo_a1_ab_apply _ _ p c).trans ((shapeCast_a_a1_apply _ _ p 0).trans (rowMax_apply R _ _ p))

theorem logSumBlock_apply (S : FVec Ideal S5000x40 .f32) (p : Fin 5000) (c : Fin 40) :
    logSumBlock S (ix2 p c) = Ideal.log (∑ c' : Fin 40, Ideal.exp (S (ix2 p c'))) := by
  unfold logSumBlock
  refine (broadcastTo_a1_ab_apply _ _ p c).trans ?_
  show Ideal.log (shapeCast S5000x1 (multiReduction .add [1] S5000 (exp S) 0x00000000#32 reduces_S5000x40_S5000 (.inl rfl) rfl) shapeCasts_S5000_S5000x1 (ix2 p (0 : Fin 1))) = _
  refine (congrArg Ideal.log ((shapeCast_a_a1_apply _ _ p 0).trans (rowSum_apply (exp S) _ _ p))).trans ?_
  rfl

/-- The row-wise log-softmax of a block at `(p, q)`: the log-softmax at `q` of the block's row `p`. -/
theorem lsmBlock_apply (R : FVec Ideal S5000x40 .f32) (p : Fin 5000) (q : Fin 40) :
    lsmBlock R (ix2 p q) = Spec.logSoftmax (fun j : Fin 40 => R (ix2 p j)) q := by
  unfold lsmBlock Spec.logSoftmax
  show (R (ix2 p q) - maxBlock R (ix2 p q)) - logSumBlock (subf R (maxBlock R)) (ix2 p q) = _
  rw [logSumBlock_apply, maxBlock_apply]
  refine congrArg (fun z => (R (ix2 p q) - Spec.rowMax (fun j : Fin 40 => R (ix2 p j))) - Ideal.log z) (Finset.sum_congr rfl fun c _ => ?_)
  show Ideal.exp (R (ix2 p c) - maxBlock R (ix2 p c)) = _
  rw [maxBlock_apply]

/-- The body's stored value at `(p, q)`: the log-softmax at `q` of the dense layer of row `p` of the two loaded blocks. -/
theorem pay_apply (x0 x1 : Vec Ideal S5000x16 .f32) (x2 : Vec Ideal S16x40 .f32) (x3 : Vec Ideal S1x40 .f32) (p : Fin 5000) (q : Fin 40) :
    k1_pay1 x0 x1 x2 x3 (ix2 p q)
      = Spec.logSoftmax (Spec.dense (fun k : Fin 16 => x0 (ix2 p k)) (fun k : Fin 16 => x1 (ix2 p k)) (fun (k : Fin 16) (j : Fin 40) => x2 (ix2 k j))
          (fun j : Fin 40 => x3 (ix2 (0 : Fin 1) j))) q := by
  rw [pay_eq, lsmBlock_apply]
  exact congrArg (Spec.logSoftmax · q) (funext fun j => reluBlock_apply x0 x1 x2 x3 p j)

/-- The region's result as one function of its four arrays: the log-softmax of the dense layer of each node's row. -/
def G2 (X A : S100000x16.Idx → Elt Ideal .f32) (Wm : S16x40.Idx → Elt Ideal .f32) (Bs : S1x40.Idx → Elt Ideal .f32) :
    S100000x40.Idx → Elt Ideal .f32 :=
  fun i => Spec.logSoftmax (Spec.dense (fun k : Fin 16 => X (ix2 (i 0) k)) (fun k : Fin 16 => A (ix2 (i 0) k)) (fun (k : Fin 16) (j : Fin 40) => Wm (ix2 k j))
    (fun j : Fin 40 => Bs (ix2 (0 : Fin 1) j))) (i 1)

/-- A block entry is the whole-array function at the array index it sits at, once the loaded blocks are read as rows of the arrays. -/
theorem block_eq (x0 x1 : Vec Ideal S5000x16 .f32) (x2 : Vec Ideal S16x40 .f32) (x3 : Vec Ideal S1x40 .f32)
    (X A : S100000x16.Idx → Elt Ideal .f32) (Wm : S16x40.Idx → Elt Ideal .f32) (Bs : S1x40.Idx → Elt Ideal .f32)
    (y : S5000x40.Idx) (i : S100000x40.Idx)
    (h0 : ∀ k : Fin 16, x0 (ix2 (y 0) k) = X (ix2 (i 0) k)) (h1 : ∀ k : Fin 16, x1 (ix2 (y 0) k) = A (ix2 (i 0) k))
    (h2 : ∀ (k : Fin 16) (j : Fin 40), x2 (ix2 k j) = Wm (ix2 k j)) (h3 : ∀ j : Fin 40, x3 (ix2 (0 : Fin 1) j) = Bs (ix2 (0 : Fin 1) j))
    (hi : (y 1).val = (i 1).val) :
    k1_pay1 x0 x1 x2 x3 y = G2 X A Wm Bs i :=
  calc k1_pay1 x0 x1 x2 x3 y = k1_pay1 x0 x1 x2 x3 (ix2 (y 0) (y 1)) := congrArg _ (eq_ix2 y)
    _ = Spec.logSoftmax (Spec.dense (fun k : Fin 16 => x0 (ix2 (y 0) k)) (fun k : Fin 16 => x1 (ix2 (y 0) k)) (fun (k : Fin 16) (j : Fin 40) => x2 (ix2 k j))
          (fun j : Fin 40 => x3 (ix2 (0 : Fin 1) j))) (y 1) := pay_apply x0 x1 x2 x3 (y 0) (y 1)
    _ = Spec.logSoftmax (Spec.dense (fun k : Fin 16 => X (ix2 (i 0) k)) (fun k : Fin 16 => A (ix2 (i 0) k)) (fun (k : Fin 16) (j : Fin 40) => Wm (ix2 k j))
          (fun j : Fin 40 => Bs (ix2 (0 : Fin 1) j))) (y 1) := by
      rw [show (fun k : Fin 16 => x0 (ix2 (y 0) k)) = fun k : Fin 16 => X (ix2 (i 0) k) from funext h0,
        show (fun k : Fin 16 => x1 (ix2 (y 0) k)) = fun k : Fin 16 => A (ix2 (i 0) k) from funext h1,
        show (fun (k : Fin 16) (j : Fin 40) => x2 (ix2 k j)) = fun (k : Fin 16) (j : Fin 40) => Wm (ix2 k j) from funext fun k => funext (h2 k),
        show (fun j : Fin 40 => x3 (ix2 (0 : Fin 1) j)) = fun j : Fin 40 => Bs (ix2 (0 : Fin 1) j) from funext h3]
    _ = G2 X A Wm Bs i := congrArg (Spec.logSoftmax _) (Fin.ext hi : (y 1 : Fin 40) = i 1)

section Region

variable (V : (c : Dev nD) → (b : Ref sig .tc) → Buf (Elt Ideal) ((c : Thread nD τ).loc b))

/-- The printed index maps over the grid: the row-blocked windows sit at block `t`, the weight and bias windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G2` of the arrays as the region finds them. -/
theorem flushed_eq (c : Dev nD) (t : Fin cfg1.N) :
    (dat1 V c).flushed 4 t = ((cfg1.win 4).blk t).view.read (Elt Ideal)
      (G2 (V c main_v15) (V c main_v25) (V c main_arg3) (V c main_v26)) := by
  show (cfg1.win 4).cut (grid1.coords t) ((dat1 V c).after 4 t) = _
  rw [after1_4]
  unfold out1_4
  rw [View.canon_unit_zero hz]
  simp only [View.ld_unit_zero (S := S5000x16) hz, View.ld_unit_zero (S := S16x40) hz, View.ld_unit_zero (S := S1x40) hz]
  obtain ⟨e00, e01, e10, e11, e20, e21, e30, e31, e40, e41⟩ := idx_facts t
  funext y
  refine block_eq (iblk1 V c 0 t) (iblk1 V c 1 t) (iblk1 V c 2 t) (iblk1 V c 3 t)
    (V c main_v15) (V c main_v25) (V c main_arg3) (V c main_v26) y (((cfg1.win 4).blk t).view.emb y) ?_ ?_ ?_ ?_ ?_
  · intro k
    show V c main_v15 (((cfg1.win 0).blk t).view.emb (ix2 (y 0) k)) = V c main_v15 (ix2 ((((cfg1.win 4).blk t).view.emb y) 0) k)
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 16 + 1 * k.val = k.val; omega
  · intro k
    show V c main_v25 (((cfg1.win 1).blk t).view.emb (ix2 (y 0) k)) = V c main_v25 (ix2 ((((cfg1.win 4).blk t).view.emb y) 0) k)
    refine congrArg _ (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 16 + 1 * k.val = k.val; omega
  · intro k j
    show V c main_arg3 (((cfg1.win 2).blk t).view.emb (ix2 k j)) = V c main_arg3 (ix2 k j)
    refine congrArg _ (funext fun a => Fin.ext ?_)
    match a with
    | ⟨0, _⟩ => show win1_2.index t (0 : Fin 2) * 16 + 1 * k.val = k.val; omega
    | ⟨1, _⟩ => show win1_2.index t (1 : Fin 2) * 40 + 1 * j.val = j.val; omega
  · intro j
    show V c main_v26 (((cfg1.win 3).blk t).view.emb (ix2 (0 : Fin 1) j)) = V c main_v26 (ix2 (0 : Fin 1) j)
    refine congrArg _ (funext fun a => Fin.ext ?_)
    match a with
    | ⟨0, _⟩ => show win1_3.index t (0 : Fin 2) * 1 + 1 * 0 = 0; omega
    | ⟨1, _⟩ => show win1_3.index t (1 : Fin 2) * 40 + 1 * j.val = j.val; omega
  · show (y 1).val = win1_4.index t (1 : Fin 2) * 40 + 1 * (y 1).val
    omega

/-- An index of the result array is in point `t`'s block iff each coordinate is in the block's range on its axis. -/
theorem mem_blk (t : Fin cfg1.N) (i : S100000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v27).slice (win1_4.rect t)).set ↔ _
  rw [View.set_slice_whole, Rect.mem_set_unit]
  exact Iff.rfl

/-- Every row of the result is in some point's block: row `r` is in block `r / 5000`. -/
theorem cover (i : S100000x40.Idx) : ∃ t : Fin cfg1.N, (cfg1.win 4).flush t = true ∧ i ∈ ((cfg1.win 4).blk t).view.set := by
  have hi0 : (i 0).val < 100000 := (i 0).isLt
  have hi1 : (i 1).val < 40 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- The result array after the region: `G2` of the arrays as the region finds them. -/
theorem final (c : Dev nD) : (dat1 V c).arrAt 4 cfg1.N = G2 (V c main_v15) (V c main_v25) (V c main_arg3) (V c main_v26) :=
  (dat1 V c).arrAt_eq_of_cover 4 _ (fun t _ => flushed_eq V c t) cover

end Region

end Cert.KernelIdeal.L2

end
-- ==== Proof.KernelValue.lean ====
/-
  The idealized kernel program's result as one function of its six arguments.

  Between the launch and the first kernel region the host takes the edge list apart (sources, destinations), gathers the
  source nodes' feature rows and adds them into the destination nodes' rows (`agg128`), and lays the bias out as a row; the
  region leaves the first layer's output (its whole-array function of those arrays).  Between the regions the host does the
  same aggregation on that output (`agg16`) and lays the second bias out; the second region leaves the result.  Every
  buffer a stretch does not write keeps its contents, and a region changes only its output array, so the contents at each
  boundary are read back to the launch memory one stretch at a time.
-/
import proofs.«113901_j36335423324412_1_alg».proof.Proof.Gen.KernelIdeal.Frame
import proofs.«113901_j36335423324412_1_alg».proof.Proof.Layer1
import proofs.«113901_j36335423324412_1_alg».proof.Proof.Layer2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KVal

open Cert.KernelIdeal Cert.KernelIdeal.Gen

section Glue

variable {F : FTy → Type} [FloatOps F]

/-- The edges' source nodes: row 0 of the edge list. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination nodes: row 1 of the edge list. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's start indices: a negative source index counted from the end, as a one-column array. -/
def wrapIdx (e1 : (⟨S1600000, .i32⟩ : BufTy).Contents (Elt F)) : (⟨S1600000x1, .i32⟩ : BufTy).Contents (Elt F) :=
  broadcastInDim S1600000x1 ![0] bcast_S1600000_S1600000x1_0 (select (cmpi .slt e1 (broadcastInDim S1600000 ![] bcast_S_S1600000 (constantI S_ 32 0#32))) (addi e1 (broadcastInDim S1600000 ![] bcast_S_S1600000 (constantI S_ 32 100000#32))) e1)

/-- The neighbour aggregate of 128-wide rows: each edge's source row added into its destination row, from zero. -/
def agg128 (x : (⟨S100000x128, .f32⟩ : BufTy).Contents (Elt F)) (e1 e3 : (⟨S1600000, .i32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 e3) (Host.gather gather_S100000x128_S1600000x1_S1600000x128_1_0_n_n_0_1_1128 x (wrapIdx e1))

/-- The neighbour aggregate of 16-wide rows. -/
def agg16 (h : (⟨S100000x16, .f32⟩ : BufTy).Contents (Elt F)) (e1 e3 : (⟨S1600000, .i32⟩ : BufTy).Contents (Elt F)) : (⟨S100000x16, .f32⟩ : BufTy).Contents (Elt F) :=
  Host.scatterAdd scatter_S100000x16_S1600000x1_S1600000x16_1_0_0_1 (broadcastInDim S100000x16 ![] bcast_S_S100000x16 (constant S_ .f32 0x00000000#32))
    (broadcastInDim S1600000x1 ![0] bcast_S1600000_S1600000x1_0 e3) (Host.gather gather_S100000x16_S1600000x1_S1600000x16_1_0_n_n_0_1_116 h (wrapIdx e1))

variable (W : Valuation τ sig (Elt F))

/-! ### What the first host stretch leaves, over any contents -/
theorem h0_v1 : after hostOps0 W (Proc.devRef .tc main_v1) = src (F := F) (W (Proc.devRef .tc main_arg5)) := by after_results; rfl
theorem h0_v3 : after hostOps0 W (Proc.devRef .tc main_v3) = dst (F := F) (W (Proc.devRef .tc main_arg5)) := by after_results; rfl
theorem h0_v13 : after hostOps0 W (Proc.devRef .tc main_v13) = agg128 (F := F) (W (Proc.devRef .tc main_arg0)) (src (W (Proc.devRef .tc main_arg5))) (dst (W (Proc.devRef .tc main_arg5))) := by
  after_results; rfl
theorem h0_v14 : after hostOps0 W (Proc.devRef .tc main_v14) = shapeCast S1x16 (W (Proc.devRef .tc main_arg2) : (⟨S16, .f32⟩ : BufTy).Contents (Elt F)) shapeCasts_S16_S1x16 := by after_results; rfl
theorem h0_arg0 : after hostOps0 W (Proc.devRef .tc main_arg0) = W (Proc.devRef .tc main_arg0) := by after_results
theorem h0_arg1 : after hostOps0 W (Proc.devRef .tc main_arg1) = W (Proc.devRef .tc main_arg1) := by after_results
theorem h0_arg3 : after hostOps0 W (Proc.devRef .tc main_arg3) = W (Proc.devRef .tc main_arg3) := by after_results
theorem h0_arg4 : after hostOps0 W (Proc.devRef .tc main_arg4) = W (Proc.devRef .tc main_arg4) := by after_results

/-! ### What the second host stretch leaves, over any contents -/
theorem h1_v15 : after hostOps1 W (Proc.devRef .tc main_v15) = W (Proc.devRef .tc main_v15) := by after_results
theorem h1_v25 : after hostOps1 W (Proc.devRef .tc main_v25) = agg16 (F := F) (W (Proc.devRef .tc main_v15)) (W (Proc.devRef .tc main_v1)) (W (Proc.devRef .tc main_v3)) := by
  after_results; rfl
theorem h1_v26 : after hostOps1 W (Proc.devRef .tc main_v26) = shapeCast S1x40 (W (Proc.devRef .tc main_arg4) : (⟨S40, .f32⟩ : BufTy).Contents (Elt F)) shapeCasts_S40_S1x40 := by after_results; rfl
theorem h1_arg3 : after hostOps1 W (Proc.devRef .tc main_arg3) = W (Proc.devRef .tc main_arg3) := by after_results

end Glue

/-- The first layer's output as a function of the arguments. -/
def hidden (x0 : (⟨S100000x128, .f32⟩ : BufTy).Contents (Elt Ideal)) (x1 : (⟨S128x16, .f32⟩ : BufTy).Contents (Elt Ideal)) (x2 : (⟨S16, .f32⟩ : BufTy).Contents (Elt Ideal)) (x5 : (⟨S2x1600000, .i32⟩ : BufTy).Contents (Elt Ideal)) : (⟨S100000x16, .f32⟩ : BufTy).Contents (Elt Ideal) :=
  L1.G1 x0 (agg128 x0 (src x5) (dst x5)) x1 (shapeCast S1x16 x2 shapeCasts_S16_S1x16)

/-- The program's result as a function of the arguments. -/
def out (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x1600000, .i32⟩ : BufTy).Contents (Elt Ideal)) : (⟨S100000x40, .f32⟩ : BufTy).Contents (Elt Ideal) :=
  L2.G2 (hidden x0 x1 x2 x5) (agg16 (hidden x0 x1 x2 x5) (src x5) (dst x5)) x3 (shapeCast S1x40 x4 shapeCasts_S40_S1x40)

variable (m : (ℓ : Loc nD τ sig) → Buf (Elt Ideal) ℓ) (ρ : Dev nD → PrngReg)

/-- The first layer's output array when the second host stretch and the second region find it. -/
theorem W2_v15 (c : Dev nD) : W2 m ρ c (Proc.devRef .tc main_v15) = hidden (m ((c : Thread nD τ).loc main_arg0)) (m ((c : Thread nD τ).loc main_arg1)) (m ((c : Thread nD τ).loc main_arg2)) (m ((c : Thread nD τ).loc main_arg5)) := by
  refine (W2_arr m ρ c 4).trans ((L1.final (V1 m ρ) c).trans ?_)
  show L1.G1 (after hostOps0 (W0 m ρ c) (Proc.devRef .tc main_arg0)) (after hostOps0 (W0 m ρ c) (Proc.devRef .tc main_v13))
    (after hostOps0 (W0 m ρ c) (Proc.devRef .tc main_arg1)) (after hostOps0 (W0 m ρ c) (Proc.devRef .tc main_v14)) = _
  rw [h0_arg0, h0_v13, h0_arg1, h0_v14]
  rfl

theorem W2_v1 (c : Dev nD) : W2 m ρ c (Proc.devRef .tc main_v1) = src (m ((c : Thread nD τ).loc main_arg5)) :=
  (W2_of_ne m ρ c main_v1 (by decide)).trans (h0_v1 _)
theorem W2_v3 (c : Dev nD) : W2 m ρ c (Proc.devRef .tc main_v3) = dst (m ((c : Thread nD τ).loc main_arg5)) :=
  (W2_of_ne m ρ c main_v3 (by decide)).trans (h0_v3 _)
theorem W2_arg3 (c : Dev nD) : W2 m ρ c (Proc.devRef .tc main_arg3) = (m ((c : Thread nD τ).loc main_arg3)) :=
  (W2_of_ne m ρ c main_arg3 (by decide)).trans (h0_arg3 _)
theorem W2_arg4 (c : Dev nD) : W2 m ρ c (Proc.devRef .tc main_arg4) = (m ((c : Thread nD τ).loc main_arg4)) :=
  (W2_of_ne m ρ c main_arg4 (by decide)).trans (h0_arg4 _)

/-- The result array at the end of the run is `out` of the launch contents of the arguments. -/
theorem W4_v27 (c : Dev nD) : W4 m ρ c (Proc.devRef .tc main_v27)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 4).trans ((L2.final (V3 m ρ) c).trans ?_)
  show L2.G2 (after hostOps1 (W2 m ρ c) (Proc.devRef .tc main_v15)) (after hostOps1 (W2 m ρ c) (Proc.devRef .tc main_v25))
    (after hostOps1 (W2 m ρ c) (Proc.devRef .tc main_arg3)) (after hostOps1 (W2 m ρ c) (Proc.devRef .tc main_v26)) = _
  rw [h1_v15, h1_v25, h1_arg3, h1_v26, W2_v15, W2_v1, W2_v3, W2_arg3, W2_arg4]
  rfl

end Cert.KernelIdeal.KVal

end
-- ==== Proof.RefRun.lean ====
/-
  The reference's run, read back stretch by stretch.  The reference is a straight line of sixty-one host operations; one
  whole-array value (the first layer's output) is read by two later operations and the second layer's output by three, so
  the value of the result buffer is taken in stretches — the first layer (up to its relu), the second layer (up to its
  relu), the row maxima, the shift by them, the normaliser — each read over an arbitrary valuation, and composed: after a
  concatenation of lines the buffers are what the second line leaves of what the first left.  The composed value is the
  stage function `Read.val_main_v36` of the six argument arrays.
-/
import proofs.«113901_j36335423324412_1_alg».proof.Proof.Gen.ReferenceIdeal
import proofs.«113901_j36335423324412_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer: edge endpoints, gather, scatter-add, the dense map, bias and relu (25 operations). -/
abbrev opsA : List (HloOp τ sig (Elt F)) :=
  [ unary main_arg5 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg5 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg1 main_v15 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg2 main_v16 (broadcastInDim S1x16 ![1] bcast_S16_S1x16_1 : (⟨S16, .f32⟩ : BufTy).Contents (Elt F) → (⟨S1x16, .f32⟩ : BufTy).Contents (Elt F)),
    unary main_v16 main_v17 (broadcastInDim S100000x16 ![0, 1] bcast_S1x16_S100000x16_0_1 : (⟨S1x16, .f32⟩ : BufTy).Contents (Elt F) → (⟨S100000x16, .f32⟩ : BufTy).Contents (Elt F)),
    binary main_v15 main_v17 main_v18 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v18) (TRef.of (T := ⟨S100000x16, .f32⟩) main_call0_v0) (TRef.of (T := ⟨S100000x16, .f32⟩) main_v19) maximumf ]

/-- The second layer: the same over the first layer's output (21 operations). -/
abbrev opsB : List (HloOp τ sig (Elt F)) :=
  [ nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_v1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_v1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v19 main_v25 main_v26 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    nullary main_cst_3 (constant S_ .f32 0x00000000#32),
    unary main_cst_3 main_v27 (broadcastInDim S100000x16 ![] bcast_S_S100000x16 : (⟨S_, .f32⟩ : BufTy).Contents (Elt F) → (⟨S100000x16, .f32⟩ : BufTy).Contents (Elt F)),
    unary main_v3 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    binary main_v19 main_v29 main_v30 (addf : (⟨S100000x16, .f32⟩ : BufTy).Contents (Elt F) → (⟨S100000x16, .f32⟩ : BufTy).Contents (Elt F) → (⟨S100000x16, .f32⟩ : BufTy).Contents (Elt F)),
    binary main_v30 main_arg3 main_v31 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_arg4 main_v32 (broadcastInDim S1x40 ![1] bcast_S40_S1x40_1 : (⟨S40, .f32⟩ : BufTy).Contents (Elt F) → (⟨S1x40, .f32⟩ : BufTy).Contents (Elt F)),
    unary main_v32 main_v33 (broadcastInDim S100000x40 ![0, 1] bcast_S1x40_S100000x40_0_1 : (⟨S1x40, .f32⟩ : BufTy).Contents (Elt F) → (⟨S100000x40, .f32⟩ : BufTy).Contents (Elt F)),
    binary main_v31 main_v33 main_v34 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v34) (TRef.of (T := ⟨S100000x40, .f32⟩) main_call1_v0) (TRef.of (T := ⟨S100000x40, .f32⟩) main_v35) maximumf ]

/-- The log-softmax's row maxima: the reduction from −∞ over the last axis (2 operations). -/
abbrev opsC1 : List (HloOp τ sig (Elt F)) :=
  [ TRef.nullary (TRef.of (T := ⟨S_, .f32⟩) main_call2_cst) (constant S_ .f32 0xFF800000#32),
    TRef.binary (TRef.of (T := ⟨S100000x40, .f32⟩) main_v35) (TRef.of (T := ⟨S_, .f32⟩) main_call2_cst) (TRef.of (T := ⟨S100000, .f32⟩) main_call2_v0) (fun x v => Host.reduce FloatOps.maximumf x v reducesTo_S100000x40_S100000_d1 h_S_) ]

/-- The log-softmax's shift: the maxima joined with −∞, laid out across the rows and subtracted (6 operations). -/
abbrev opsC2 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v35) (TRef.of (T := ⟨S100000x40, .f32⟩) main_call2_v4) (TRef.of (T := ⟨S100000x40, .f32⟩) main_call2_v5) subf ]

/-- The log-softmax's normaliser: exponentials, row sums, their logarithms laid out across the rows and subtracted (7 operations). -/
abbrev opsC3 : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v36) subf ]

/-- The whole line. -/
abbrev ops : List (HloOp τ sig (Elt F)) := opsA ++ (opsB ++ (opsC1 ++ (opsC2 ++ opsC3)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩
theorem opsC1_sub : (opsC1 : List (HloOp τ sig (Elt F))).Forall fun op => op.bufs ⊆ tcRefs τ sig :=
  ⟨nullary_bufs_sub .., binary_bufs_sub ..⟩
theorem opsC2_sub : (opsC2 : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem opsC3_sub : (opsC3 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    rcases List.mem_append.mp h with h | h
    · exact List.forall_iff_forall_mem.mp opsC1_sub op h
    rcases List.mem_append.mp h with h | h
    · exact List.forall_iff_forall_mem.mp opsC2_sub op h
    · exact List.forall_iff_forall_mem.mp opsC3_sub op h

/-- After two lines run one after the other the buffers are what the second leaves of what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stretches, each over an arbitrary valuation -/

/-- The second layer as one function of the first layer's output `h`, the two endpoint vectors and its weights. -/
def layer2 (h : (⟨S100000x16, .f32⟩ : BufTy).Contents (Elt F)) (e1 e3 : (⟨S1600000, .i32⟩ : BufTy).Contents (Elt F)) (x3 : (⟨S16x40, .f32⟩ : BufTy).Contents (Elt F)) (x4 : (⟨S40, .f32⟩ : BufTy).Contents (Elt F)) : (⟨S100000x40, .f32⟩ : BufTy).Contents (Elt F) :=
  (maximumf (addf (Host.dotGeneral dot_S100000x16_S16x40_S100000x40_1_0_0_1_n_n none (addf h (Host.scatterAdd scatter_S100000x16_S1600000x1_S1600000x16_1_0_0_1 (broadcastInDim S100000x16 ![] bcast_S_S100000x16 (constant S_ .f32 0x00000000#32)) (broadcastInDim S1600000x1 ![0] bcast_S1600000_S1600000x1_0 e3) (Host.gather gather_S100000x16_S1600000x1_S1600000x16_1_0_n_n_0_1_116 h (broadcastInDim S1600000x1 ![0] bcast_S1600000_S1600000x1_0 (select (cmpi .slt e1 (broadcastInDim S1600000 ![] bcast_S_S1600000 (constantI S_ 32 0#32))) (addi e1 (broadcastInDim S1600000 ![] bcast_S_S1600000 (constantI S_ 32 100000#32))) e1))))) (x3)) (broadcastInDim S100000x40 ![0, 1] bcast_S1x40_S100000x40_0_1 (broadcastInDim S1x40 ![1] bcast_S40_S1x40_1 (x4)))) (broadcastInDim S100000x40 ![] bcast_S_S100000x40 (constant S_ .f32 0x00000000#32)))

/-- The row maxima of an array, from −∞. -/
def rowMaxima (r : (⟨S100000x40, .f32⟩ : BufTy).Contents (Elt F)) : (⟨S100000, .f32⟩ : BufTy).Contents (Elt F) :=
  (Host.reduce FloatOps.maximumf r (constant S_ .f32 0xFF800000#32) reducesTo_S100000x40_S100000_d1 h_S_)

/-- An array less its row maxima (joined with −∞) laid out across the rows. -/
def shiftBy (r : (⟨S100000x40, .f32⟩ : BufTy).Contents (Elt F)) (mx : (⟨S100000, .f32⟩ : BufTy).Contents (Elt F)) : (⟨S100000x40, .f32⟩ : BufTy).Contents (Elt F) :=
  (subf r (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) mx))))

/-- An array less the logarithms of its rows' sums of exponentials laid out across the rows. -/
def lessLogSum (s : (⟨S100000x40, .f32⟩ : BufTy).Contents (Elt F)) : (⟨S100000x40, .f32⟩ : BufTy).Contents (Elt F) :=
  (subf s (broadcastInDim S100000x40 ![0, 1] bcast_S100000x1_S100000x40_0_1 (Host.log (broadcastInDim S100000x1 ![0] bcast_S100000_S100000x1_0 (Host.reduceAdd (Host.exp s) (constant S_ .f32 0x00000000#32) reducesTo_S100000x40_S100000_d1 h_S_)))))

variable (W : Valuation τ sig (Elt F))

theorem stA_v19 : after opsA W (Proc.devRef .tc main_v19) = Read.val_main_v19 (F := F) (W (Proc.devRef .tc main_arg0)) (W (Proc.devRef .tc main_arg1)) (W (Proc.devRef .tc main_arg2)) (W (Proc.devRef .tc main_arg5)) := by
  after_results_simp <;> rfl
theorem stA_v1 : after opsA W (Proc.devRef .tc main_v1) = Read.val_main_v1 (F := F) (W (Proc.devRef .tc main_arg5)) := by
  after_results_simp <;> rfl
theorem stA_v3 : after opsA W (Proc.devRef .tc main_v3) = Read.val_main_v3 (F := F) (W (Proc.devRef .tc main_arg5)) := by
  after_results_simp <;> rfl
theorem stA_arg0 : after opsA W (Proc.devRef .tc main_arg0) = W (Proc.devRef .tc main_arg0) := by after_results_simp
theorem stA_arg1 : after opsA W (Proc.devRef .tc main_arg1) = W (Proc.devRef .tc main_arg1) := by after_results_simp
theorem stA_arg2 : after opsA W (Proc.devRef .tc main_arg2) = W (Proc.devRef .tc main_arg2) := by after_results_simp
theorem stA_arg3 : after opsA W (Proc.devRef .tc main_arg3) = W (Proc.devRef .tc main_arg3) := by after_results_simp
theorem stA_arg4 : after opsA W (Proc.devRef .tc main_arg4) = W (Proc.devRef .tc main_arg4) := by after_results_simp
theorem stA_arg5 : after opsA W (Proc.devRef .tc main_arg5) = W (Proc.devRef .tc main_arg5) := by after_results_simp
theorem stB_v35 : after opsB W (Proc.devRef .tc main_v35) = layer2 (F := F) (W (Proc.devRef .tc main_v19)) (W (Proc.devRef .tc main_v1)) (W (Proc.devRef .tc main_v3)) (W (Proc.devRef .tc main_arg3)) (W (Proc.devRef .tc main_arg4)) := by
  after_results_simp <;> rfl
theorem stB_arg0 : after opsB W (Proc.devRef .tc main_arg0) = W (Proc.devRef .tc main_arg0) := by after_results_simp
theorem stB_arg1 : after opsB W (Proc.devRef .tc main_arg1) = W (Proc.devRef .tc main_arg1) := by after_results_simp
theorem stB_arg2 : after opsB W (Proc.devRef .tc main_arg2) = W (Proc.devRef .tc main_arg2) := by after_results_simp
theorem stB_arg3 : after opsB W (Proc.devRef .tc main_arg3) = W (Proc.devRef .tc main_arg3) := by after_results_simp
theorem stB_arg4 : after opsB W (Proc.devRef .tc main_arg4) = W (Proc.devRef .tc main_arg4) := by after_results_simp
theorem stB_arg5 : after opsB W (Proc.devRef .tc main_arg5) = W (Proc.devRef .tc main_arg5) := by after_results_simp
-- the reduction itself is never opened: only the operation's place in the line is read
attribute [local irreducible] Host.reduce in
theorem stC1_v0 : after opsC1 W (Proc.devRef .tc main_call2_v0) = rowMaxima (F := F) (W (Proc.devRef .tc main_v35)) := by
  after_results_simp <;> rfl
theorem stC1_v35 : after opsC1 W (Proc.devRef .tc main_v35) = W (Proc.devRef .tc main_v35) := by after_results_simp
theorem stC1_arg0 : after opsC1 W (Proc.devRef .tc main_arg0) = W (Proc.devRef .tc main_arg0) := by after_results_simp
theorem stC1_arg1 : after opsC1 W (Proc.devRef .tc main_arg1) = W (Proc.devRef .tc main_arg1) := by after_results_simp
theorem stC1_arg2 : after opsC1 W (Proc.devRef .tc main_arg2) = W (Proc.devRef .tc main_arg2) := by after_results_simp
theorem stC1_arg3 : after opsC1 W (Proc.devRef .tc main_arg3) = W (Proc.devRef .tc main_arg3) := by after_results_simp
theorem stC1_arg4 : after opsC1 W (Proc.devRef .tc main_arg4) = W (Proc.devRef .tc main_arg4) := by after_results_simp
theorem stC1_arg5 : after opsC1 W (Proc.devRef .tc main_arg5) = W (Proc.devRef .tc main_arg5) := by after_results_simp
theorem stC2_v5 : after opsC2 W (Proc.devRef .tc main_call2_v5) = shiftBy (F := F) (W (Proc.devRef .tc main_v35)) (W (Proc.devRef .tc main_call2_v0)) := by
  after_results_simp <;> rfl
theorem stC2_arg0 : after opsC2 W (Proc.devRef .tc main_arg0) = W (Proc.devRef .tc main_arg0) := by after_results_simp
theorem stC2_arg1 : after opsC2 W (Proc.devRef .tc main_arg1) = W (Proc.devRef .tc main_arg1) := by after_results_simp
theorem stC2_arg2 : after opsC2 W (Proc.devRef .tc main_arg2) = W (Proc.devRef .tc main_arg2) := by after_results_simp
theorem stC2_arg3 : after opsC2 W (Proc.devRef .tc main_arg3) = W (Proc.devRef .tc main_arg3) := by after_results_simp
theorem stC2_arg4 : after opsC2 W (Proc.devRef .tc main_arg4) = W (Proc.devRef .tc main_arg4) := by after_results_simp
theorem stC2_arg5 : after opsC2 W (Proc.devRef .tc main_arg5) = W (Proc.devRef .tc main_arg5) := by after_results_simp
theorem stC3_v36 : after opsC3 W (Proc.devRef .tc main_v36) = lessLogSum (F := F) (W (Proc.devRef .tc main_call2_v5)) := by
  after_results_simp <;> rfl
theorem stC3_arg0 : after opsC3 W (Proc.devRef .tc main_arg0) = W (Proc.devRef .tc main_arg0) := by after_results_simp
theorem stC3_arg1 : after opsC3 W (Proc.devRef .tc main_arg1) = W (Proc.devRef .tc main_arg1) := by after_results_simp
theorem stC3_arg2 : after opsC3 W (Proc.devRef .tc main_arg2) = W (Proc.devRef .tc main_arg2) := by after_results_simp
theorem stC3_arg3 : after opsC3 W (Proc.devRef .tc main_arg3) = W (Proc.devRef .tc main_arg3) := by after_results_simp
theorem stC3_arg4 : after opsC3 W (Proc.devRef .tc main_arg4) = W (Proc.devRef .tc main_arg4) := by after_results_simp
theorem stC3_arg5 : after opsC3 W (Proc.devRef .tc main_arg5) = W (Proc.devRef .tc main_arg5) := by after_results_simp

/-! ## Composed -/

/-- The stage function of the result is the stretches composed. -/
theorem stages_eq (x0 : (⟨S100000x128, .f32⟩ : BufTy).Contents (Elt F)) (x1 : (⟨S128x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x1600000, .i32⟩ : BufTy).Contents (Elt F)) :
    lessLogSum (F := F) (shiftBy (layer2 (Read.val_main_v19 (F := F) x0 x1 x2 x5) (Read.val_main_v1 (F := F) x5) (Read.val_main_v3 (F := F) x5) x3 x4)
        (rowMaxima (layer2 (Read.val_main_v19 (F := F) x0 x1 x2 x5) (Read.val_main_v1 (F := F) x5) (Read.val_main_v3 (F := F) x5) x3 x4)))
      = Read.val_main_v36 (F := F) x0 x1 x2 x3 x4 x5 := rfl

theorem result_eq : after ops W (Proc.devRef .tc main_v36) = Read.val_main_v36 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  show after (opsA ++ (opsB ++ (opsC1 ++ (opsC2 ++ opsC3)))) W _ = _
  rw [after_append, after_append, after_append, after_append, stC3_v36, stC2_v5, stC1_v0, stC1_v35, stB_v35, stA_v19, stA_v1, stA_v3, stA_arg3, stA_arg4]
  exact stages_eq _ _ _ _ _ _

theorem arg0_eq : after ops W (Proc.devRef .tc main_arg0) = W (Proc.devRef .tc main_arg0) := by
  show after (opsA ++ (opsB ++ (opsC1 ++ (opsC2 ++ opsC3)))) W _ = _
  rw [after_append, after_append, after_append, after_append, stC3_arg0, stC2_arg0, stC1_arg0, stB_arg0, stA_arg0]
theorem arg1_eq : after ops W (Proc.devRef .tc main_arg1) = W (Proc.devRef .tc main_arg1) := by
  show after (opsA ++ (opsB ++ (opsC1 ++ (opsC2 ++ opsC3)))) W _ = _
  rw [after_append, after_append, after_append, after_append, stC3_arg1, stC2_arg1, stC1_arg1, stB_arg1, stA_arg1]
theorem arg2_eq : after ops W (Proc.devRef .tc main_arg2) = W (Proc.devRef .tc main_arg2) := by
  show after (opsA ++ (opsB ++ (opsC1 ++ (opsC2 ++ opsC3)))) W _ = _
  rw [after_append, after_append, after_append, after_append, stC3_arg2, stC2_arg2, stC1_arg2, stB_arg2, stA_arg2]
theorem arg3_eq : after ops W (Proc.devRef .tc main_arg3) = W (Proc.devRef .tc main_arg3) := by
  show after (opsA ++ (opsB ++ (opsC1 ++ (opsC2 ++ opsC3)))) W _ = _
  rw [after_append, after_append, after_append, after_append, stC3_arg3, stC2_arg3, stC1_arg3, stB_arg3, stA_arg3]
theorem arg4_eq : after ops W (Proc.devRef .tc main_arg4) = W (Proc.devRef .tc main_arg4) := by
  show after (opsA ++ (opsB ++ (opsC1 ++ (opsC2 ++ opsC3)))) W _ = _
  rw [after_append, after_append, after_append, after_append, stC3_arg4, stC2_arg4, stC1_arg4, stB_arg4, stA_arg4]
theorem arg5_eq : after ops W (Proc.devRef .tc main_arg5) = W (Proc.devRef .tc main_arg5) := by
  show after (opsA ++ (opsB ++ (opsC1 ++ (opsC2 ++ opsC3)))) W _ = _
  rw [after_append, after_append, after_append, after_append, stC3_arg5, stC2_arg5, stC1_arg5, stB_arg5, stA_arg5]

/-- Every weakly fair execution of the reference terminates with its result array at the stage function of the launch
    contents of the six arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Read.val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v36).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference's result read at an index.

  The reference computes on whole arrays: the neighbour aggregate, the dense map as one matrix product over all
  hundred thousand nodes, the bias broadcast down the rows, the clamp at zero; the same again on the first layer's output;
  then the log-softmax over each row (the row maximum as a reduction from −∞, once more joined with −∞; the normaliser as a
  sum from zero).  Read at `(p, q)` each of these is a function of node `p`'s rows only: the first layer's output is the dense
  layer of the feature row and the aggregated row, the result the log-softmax at `q` of the dense layer of the first
  layer's output row and its aggregated row.  (The maximum joined with −∞ is the maximum, the sum from zero the sum.)
-/
import proofs.«113901_j36335423324412_1_alg».proof.Proof.RefRead
import proofs.«113901_j36335423324412_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

variable (x0 : (⟨S100000x128, .f32⟩ : BufTy).Contents (Elt Ideal)) (x1 : (⟨S128x16, .f32⟩ : BufTy).Contents (Elt Ideal)) (x2 : (⟨S16, .f32⟩ : BufTy).Contents (Elt Ideal))
  (x3 : (⟨S16x40, .f32⟩ : BufTy).Contents (Elt Ideal)) (x4 : (⟨S40, .f32⟩ : BufTy).Contents (Elt Ideal)) (x5 : (⟨S2x1600000, .i32⟩ : BufTy).Contents (Elt Ideal))

/-- The first layer's output at `(p, q)`: the dense layer of node `p`'s feature row and aggregated row. -/
theorem hidden_apply (p : Fin 100000) (q : Fin 16) :
    val_main_v19 (F := Ideal) x0 x1 x2 x5 (ix2 p q)
      = Spec.dense (fun k : Fin 128 => x0 (ix2 p k)) (fun k : Fin 128 => val_main_v13 (F := Ideal) x0 x5 (ix2 p k))
          (fun (k : Fin 128) (j : Fin 16) => x1 (ix2 k j)) (fun j : Fin 16 => x2 (ix1 j)) q := by
  rw [val_main_v19_apply, val_main_v18_apply, val_main_v15_apply, val_main_v17_apply, val_main_v16_apply,
    val_main_call0_v0_apply, val_main_call0_cst_apply]
  have e1 : ∀ k : Fin 128, lidx_main_v15 (ix2 p q) k = ix2 p k := fun k => funext fun a => Fin.ext (by
    match a with | ⟨0, _⟩ => rfl | ⟨1, _⟩ => rfl)
  have e2 : ∀ k : Fin 128, ridx_main_v15 (ix2 p q) k = ix2 k q := fun k => funext fun a => Fin.ext (by
    match a with | ⟨0, _⟩ => rfl | ⟨1, _⟩ => rfl)
  have e3 : idx_main_v16 (idx_main_v17 (ix2 p q)) = ix1 q := funext fun a => Fin.ext (by
    match a with | ⟨0, _⟩ => rfl)
  unfold Spec.dense
  simp only [e1, e2, e3, val_main_v14_apply, Ideal.addf_def, Ideal.maximumf_def, Ideal.ofBits_def, Ideal.ofBits_zero_f32]

/-- The second layer's clamped dense map at `(p, q)`: the dense layer of node `p`'s first-layer row and its aggregated row. -/
theorem relu2_apply (p : Fin 100000) (q : Fin 40) :
    val_main_v35 (F := Ideal) x0 x1 x2 x3 x4 x5 (ix2 p q)
      = Spec.dense (fun k : Fin 16 => val_main_v19 (F := Ideal) x0 x1 x2 x5 (ix2 p k)) (fun k : Fin 16 => val_main_v29 (F := Ideal) x0 x1 x2 x5 (ix2 p k))
          (fun (k : Fin 16) (j : Fin 40) => x3 (ix2 k j)) (fun j : Fin 40 => x4 (ix1 j)) q := by
  rw [val_main_v35_apply, val_main_v34_apply, val_main_v31_apply, val_main_v33_apply, val_main_v32_apply,
    val_main_call1_v0_apply, val_main_call1_cst_apply]
  have e1 : ∀ k : Fin 16, lidx_main_v31 (ix2 p q) k = ix2 p k := fun k => funext fun a => Fin.ext (by
    match a with | ⟨0, _⟩ => rfl | ⟨1, _⟩ => rfl)
  have e2 : ∀ k : Fin 16, ridx_main_v31 (ix2 p q) k = ix2 k q := fun k => funext fun a => Fin.ext (by
    match a with | ⟨0, _⟩ => rfl | ⟨1, _⟩ => rfl)
  have e3 : idx_main_v32 (idx_main_v33 (ix2 p q)) = ix1 q := funext fun a => Fin.ext (by
    match a with | ⟨0, _⟩ => rfl)
  unfold Spec.dense
  simp only [e1, e2, e3, val_main_v30_apply, Ideal.addf_def, Ideal.maximumf_def, Ideal.ofBits_def, Ideal.ofBits_zero_f32]

/-- Row `p`'s maximum as the reference takes it: the reduction from −∞ over the row, joined once more with −∞. -/
theorem rowMax_apply (p : Fin 100000) :
    val_main_call2_v2 (F := Ideal) x0 x1 x2 x3 x4 x5 (ix1 p)
      = Spec.rowMax (fun c : Fin 40 => val_main_v35 (F := Ideal) x0 x1 x2 x3 x4 x5 (ix2 p c)) := by
  rw [val_main_call2_v2_apply, val_main_call2_v1_apply, val_main_call2_cst_0_apply]
  unfold val_main_call2_v0
  generalize val_main_v35 (F := Ideal) x0 x1 x2 x3 x4 x5 = y
  have hb : Ideal.ofBits .f32 0xFF800000#32 = ⊥ := by simp [Ideal.ofBits, Ideal.ieee]
  have hr := Host.reduce_eq_fold_single (FloatOps.maximumf (F := Ideal) (φ := .f32)) y (val_main_call2_cst (F := Ideal))
    reducesTo_S100000x40_S100000_d1 (by decide : S100000x40.Reduces [1] S100000) h_S_ (ix1 p)
  refine (congrArg (FloatOps.maximumf (F := Ideal) (φ := .f32) (FloatOps.ofBits .f32 0xFF800000#32)) hr).trans ?_
  show max (Ideal.ofBits .f32 0xFF800000#32) (Finset.fold max (Ideal.ofBits .f32 0xFF800000#32) _ Finset.univ) = _
  rw [hb, max_bot_left]
  unfold Spec.rowMax
  refine congrArg (Finset.fold max ⊥ · Finset.univ) (funext fun k => congrArg y (funext fun a => Fin.ext ?_))
  match a with
  | ⟨0, _⟩ => rfl
  | ⟨1, _⟩ => rfl

/-- The shifted entries: each entry less its row's maximum. -/
theorem shifted_apply (p : Fin 100000) (q : Fin 40) :
    val_main_call2_v5 (F := Ideal) x0 x1 x2 x3 x4 x5 (ix2 p q)
      = val_main_v35 (F := Ideal) x0 x1 x2 x3 x4 x5 (ix2 p q) - Spec.rowMax (fun c : Fin 40 => val_main_v35 (F := Ideal) x0 x1 x2 x3 x4 x5 (ix2 p c)) := by
  rw [val_main_call2_v5_apply, val_main_call2_v4_apply, val_main_call2_v3_apply]
  have e : idx_main_call2_v3 (idx_main_call2_v4 (ix2 p q)) = ix1 p := funext fun a => Fin.ext (by
    match a with | ⟨0, _⟩ => rfl)
  rw [e, rowMax_apply]
  rfl

/-- The result at `(p, q)`: the log-softmax at `q` of row `p` of the second layer's clamped dense map. -/
theorem lsm_apply (p : Fin 100000) (q : Fin 40) :
    val_main_v36 (F := Ideal) x0 x1 x2 x3 x4 x5 (ix2 p q)
      = Spec.logSoftmax (fun c : Fin 40 => val_main_v35 (F := Ideal) x0 x1 x2 x3 x4 x5 (ix2 p c)) q := by
  rw [val_main_v36_apply, val_main_call2_v10_apply, val_main_call2_v9_apply, val_main_call2_v8_apply, val_main_call2_v7_apply,
    val_main_call2_cst_1_apply, shifted_apply]
  have e : ∀ k : Fin 40, idx_main_call2_v7 (idx_main_call2_v8 (idx_main_call2_v10 (ix2 p q))) k = ix2 p k := fun k => funext fun a => Fin.ext (by
    match a with | ⟨0, _⟩ => rfl | ⟨1, _⟩ => rfl)
  unfold Spec.logSoftmax
  simp only [e, val_main_call2_v6_apply, shifted_apply, Ideal.subf_def, Ideal.hostUnary_log_def, Ideal.hostUnary_exp_def, Ideal.ofBits_def,
    Ideal.ofBits_zero_f32, zero_add]

/-- The reference's result at `(p, q)` from the first layer's output and its aggregate. -/
theorem out_apply (p : Fin 100000) (q : Fin 40) :
    val_main_v36 (F := Ideal) x0 x1 x2 x3 x4 x5 (ix2 p q)
      = Spec.logSoftmax (Spec.dense (fun k : Fin 16 => val_main_v19 (F := Ideal) x0 x1 x2 x5 (ix2 p k)) (fun k : Fin 16 => val_main_v29 (F := Ideal) x0 x1 x2 x5 (ix2 p k))
          (fun (k : Fin 16) (j : Fin 40) => x3 (ix2 k j)) (fun j : Fin 40 => x4 (ix1 j))) q := by
  rw [lsm_apply]
  exact congrArg (Spec.logSoftmax · q) (funext fun c => relu2_apply x0 x1 x2 x3 x4 x5 p c)

end Cert.ReferenceIdeal.RefVal

end
-- ==== Proof.Bridge.lean ====
/-
  The two programs compute one function.

  Both aggregate neighbours with the same gather and scatter-add over the same edge endpoints, so the two aggregates are
  one term (the programs' texts differ only in which copy of a shape's name and of a shape fact they cite).  The kernel
  program's first-layer array is the dense layer of each node's feature row and aggregated row, with the bias read
  through its one-row layout; the reference's is the same dense layer with the bias read directly: the same entry at
  every index.  Likewise for the result: the log-softmax of the dense layer of each node's first-layer row and its
  aggregated row.
-/
import proofs.«113901_j36335423324412_1_alg».proof.Proof.KernelValue
import proofs.«113901_j36335423324412_1_alg».proof.Proof.RefValue
import Idealize.ShloMosaic.Lib.ValueLayout

noncomputable section

open Idealize.ShloMosaic Idealize.ShloMosaic.ValueIdx

namespace Cert.Proof.Bridge

variable (x0 : (⟨Cert.KernelIdeal.S100000x128, .f32⟩ : BufTy).Contents (Elt Ideal)) (x1 : (⟨Cert.KernelIdeal.S128x16, .f32⟩ : BufTy).Contents (Elt Ideal)) (x2 : (⟨Cert.KernelIdeal.S16, .f32⟩ : BufTy).Contents (Elt Ideal))
  (x3 : (⟨Cert.KernelIdeal.S16x40, .f32⟩ : BufTy).Contents (Elt Ideal)) (x4 : (⟨Cert.KernelIdeal.S40, .f32⟩ : BufTy).Contents (Elt Ideal)) (x5 : (⟨Cert.KernelIdeal.S2x1600000, .i32⟩ : BufTy).Contents (Elt Ideal))

/-- The two programs' aggregates of the feature rows are one term. -/
theorem agg128_eq :
    Cert.KernelIdeal.KVal.agg128 (F := Ideal) x0 (Cert.KernelIdeal.KVal.src x5) (Cert.KernelIdeal.KVal.dst x5) = Cert.ReferenceIdeal.Read.val_main_v13 (F := Ideal) x0 x5 := rfl

/-- The two programs' aggregates of the first layer's rows are one term. -/
theorem agg16_eq :
    Cert.KernelIdeal.KVal.agg16 (F := Ideal) (Cert.ReferenceIdeal.Read.val_main_v19 (F := Ideal) x0 x1 x2 x5) (Cert.KernelIdeal.KVal.src x5) (Cert.KernelIdeal.KVal.dst x5)
      = Cert.ReferenceIdeal.Read.val_main_v29 (F := Ideal) x0 x1 x2 x5 := rfl

/-- The first layer's output: the kernel program's array is the reference's. -/
theorem hidden_eq : Cert.KernelIdeal.KVal.hidden x0 x1 x2 x5 = Cert.ReferenceIdeal.Read.val_main_v19 (F := Ideal) x0 x1 x2 x5 := by
  funext i
  obtain ⟨p, q, rfl⟩ : ∃ (p : Fin 100000) (q : Fin 16), i = ix2 p q := ⟨i 0, i 1, eq_ix2 i⟩
  have hb : (fun j : Fin 16 => shapeCast Cert.KernelIdeal.S1x16 x2 Cert.KernelIdeal.Gen.shapeCasts_S16_S1x16 (ix2 (0 : Fin 1) j)) = fun j : Fin 16 => x2 (ix1 j) :=
    funext fun j => shapeCast_a_1a_apply x2 _ 0 j
  calc Cert.KernelIdeal.KVal.hidden x0 x1 x2 x5 (ix2 p q)
      = Spec.dense (fun k : Fin 128 => x0 (ix2 p k)) (fun k : Fin 128 => Cert.KernelIdeal.KVal.agg128 (F := Ideal) x0 (Cert.KernelIdeal.KVal.src x5) (Cert.KernelIdeal.KVal.dst x5) (ix2 p k))
          (fun (k : Fin 128) (j : Fin 16) => x1 (ix2 k j))
          (fun j : Fin 16 => shapeCast Cert.KernelIdeal.S1x16 x2 Cert.KernelIdeal.Gen.shapeCasts_S16_S1x16 (ix2 (0 : Fin 1) j)) q := rfl
    _ = Spec.dense (fun k : Fin 128 => x0 (ix2 p k)) (fun k : Fin 128 => Cert.ReferenceIdeal.Read.val_main_v13 (F := Ideal) x0 x5 (ix2 p k))
          (fun (k : Fin 128) (j : Fin 16) => x1 (ix2 k j)) (fun j : Fin 16 => x2 (ix1 j)) q := by rw [hb, agg128_eq]
    _ = Cert.ReferenceIdeal.Read.val_main_v19 (F := Ideal) x0 x1 x2 x5 (ix2 p q) := (Cert.ReferenceIdeal.RefVal.hidden_apply x0 x1 x2 x5 p q).symm

/-- The result: the kernel program's array is the reference's. -/
theorem out_eq : Cert.KernelIdeal.KVal.out x0 x1 x2 x3 x4 x5 = Cert.ReferenceIdeal.Read.val_main_v36 (F := Ideal) x0 x1 x2 x3 x4 x5 := by
  funext i
  obtain ⟨p, q, rfl⟩ : ∃ (p : Fin 100000) (q : Fin 40), i = ix2 p q := ⟨i 0, i 1, eq_ix2 i⟩
  have hb : (fun j : Fin 40 => shapeCast Cert.KernelIdeal.S1x40 x4 Cert.KernelIdeal.Gen.shapeCasts_S40_S1x40 (ix2 (0 : Fin 1) j)) = fun j : Fin 40 => x4 (ix1 j) :=
    funext fun j => shapeCast_a_1a_apply x4 _ 0 j
  calc Cert.KernelIdeal.KVal.out x0 x1 x2 x3 x4 x5 (ix2 p q)
      = Spec.logSoftmax (Spec.dense (fun k : Fin 16 => Cert.KernelIdeal.KVal.hidden x0 x1 x2 x5 (ix2 p k))
          (fun k : Fin 16 => Cert.KernelIdeal.KVal.agg16 (F := Ideal) (Cert.KernelIdeal.KVal.hidden x0 x1 x2 x5) (Cert.KernelIdeal.KVal.src x5) (Cert.KernelIdeal.KVal.dst x5) (ix2 p k))
          (fun (k : Fin 16) (j : Fin 40) => x3 (ix2 k j))
          (fun j : Fin 40 => shapeCast Cert.KernelIdeal.S1x40 x4 Cert.KernelIdeal.Gen.shapeCasts_S40_S1x40 (ix2 (0 : Fin 1) j))) q := rfl
    _ = Spec.logSoftmax (Spec.dense (fun k : Fin 16 => Cert.ReferenceIdeal.Read.val_main_v19 (F := Ideal) x0 x1 x2 x5 (ix2 p k))
          (fun k : Fin 16 => Cert.ReferenceIdeal.Read.val_main_v29 (F := Ideal) x0 x1 x2 x5 (ix2 p k))
          (fun (k : Fin 16) (j : Fin 40) => x3 (ix2 k j)) (fun j : Fin 40 => x4 (ix1 j))) q := by rw [hb, hidden_eq, agg16_eq]
    _ = Cert.ReferenceIdeal.Read.val_main_v36 (F := Ideal) x0 x1 x2 x3 x4 x5 (ix2 p q) := (Cert.ReferenceIdeal.RefVal.out_apply x0 x1 x2 x3 x4 x5 p q).symm

end Cert.Proof.Bridge

end
-- ==== Proof.lean ====
/-
  A two-layer graph network (each layer: a node's features plus the sum of its in-neighbours' features, through a dense
  map, a bias and a clamp at zero; the last layer ends in a row-wise log-softmax) computed two ways: by a program that
  aggregates on the host and runs each layer's dense part as a kernel over twenty blocks of five thousand nodes, and by a
  plain array program.  Over the extended reals the two are the same function of the six arguments, entry by entry:
  each layer is a function of one node's rows only, so the blocking does not matter; the kernels' matrix products into a
  zero accumulator and the reference's contractions are the same finite sums; the kernels' lane maximum and lane sum and
  the reference's reductions fold over the same forty entries of a row; the roundings the kernels make on the way into
  the matrix unit are the identity on extended reals.  No input needs to be finite for any of this.

  The claims: the three programs run, terminate without a fault and leave their arguments unchanged; the idealized kernel
  program is the printed kernel program read at the extended reals, with no operation rewritten; and from memories that
  agree on the arguments the idealized kernel program and the idealized reference end with equal results.
-/
import proofs.«113901_j36335423324412_1_alg».proof.Defs
import proofs.«113901_j36335423324412_1_alg».proof.Proof.Gen.Kernel
import proofs.«113901_j36335423324412_1_alg».proof.Proof.Gen.Kernel.Skeleton
import proofs.«113901_j36335423324412_1_alg».proof.Proof.Gen.Kernel.Launch
import proofs.«113901_j36335423324412_1_alg».proof.Proof.Gen.Kernel.Points
import proofs.«113901_j36335423324412_1_alg».proof.Proof.Gen.Kernel.Frame
import proofs.«113901_j36335423324412_1_alg».proof.Proof.Gen.KernelIdeal
import proofs.«113901_j36335423324412_1_alg».proof.Proof.Gen.KernelIdeal.Skeleton
import proofs.«113901_j36335423324412_1_alg».proof.Proof.Gen.KernelIdeal.Launch
import proofs.«113901_j36335423324412_1_alg».proof.Proof.Gen.KernelIdeal.Points
import proofs.«113901_j36335423324412_1_alg».proof.Proof.Gen.KernelIdeal.Frame
import proofs.«113901_j36335423324412_1_alg».proof.Proof.Gen.ReferenceIdeal
import proofs.«113901_j36335423324412_1_alg».proof.Proof.Gen.Pre_finite_inputs
import proofs.«113901_j36335423324412_1_alg».proof.Proof.KernelRun
import proofs.«113901_j36335423324412_1_alg».proof.Proof.KernelValue
import proofs.«113901_j36335423324412_1_alg».proof.Proof.RefRun
import proofs.«113901_j36335423324412_1_alg».proof.Proof.RefValue
import proofs.«113901_j36335423324412_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the result array at one function of the
    arguments: the kernel program's run names it, the reference's run ends at the reference's stage function of the same
    arguments, and the two functions are equal. -/
theorem algebraic : Cert.algebraic_KernelIdeal_ReferenceIdeal := by
  intro m ρ m' ρ' _ hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.KVal.W4_v27 m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact (Cert.Proof.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
